-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4000 : Shape := ⟨3, ![32, 512, 4000]⟩
abbrev S4000 : Shape := ⟨1, ![4000]⟩
abbrev S_ : Shape := ⟨0, ![]⟩

class Facts : Prop where
  bcast_S_S32x512x4000 : S_.BroadcastsInDim S32x512x4000 (![] : Fin 0 → Fin S32x512x4000.rank)
  reducesTo_S32x512x4000_S_d0_1_2 : S32x512x4000.ReducesTo [0, 1, 2] S_
  h_S_ : 0 < S_.numel

variable [Facts]

def fn {F : FTy → Type} [FloatOps F] (main_arg0 : FVec F S32x512x4000 .f32) (main_arg1 : IVec S4000 1) (main_arg2 : IVec S4000 32) : IVec S_ 1 :=
  let main_v0 : FVec F S32x512x4000 .f32 := Host.absf main_arg0
  let main_cst : FVec F S_ .f32 := constant S_ .f32 0x7F800000#32
  let main_v1 : FVec F S32x512x4000 .f32 := broadcastInDim S32x512x4000 ![] bcast_S_S32x512x4000 main_cst
  let main_v2 : IVec S32x512x4000 1 := cmpf .olt main_v0 main_v1
  let main_c : IVec S_ 1 := constantI S_ 1 1#1
  let main_v3 : IVec S_ 1 := (fun x v => Host.reduce IntOp.andi x v reducesTo_S32x512x4000_S_d0_1_2 h_S_) main_v2 main_c
  main_v3
-- ==== Kernel.lean ====
abbrev S32x512x4000 : Shape := ⟨3, ![32, 512, 4000]⟩
abbrev S4000 : Shape := ⟨1, ![4000]⟩
abbrev S_ : Shape := ⟨0, ![]⟩
abbrev S4x64x4000 : Shape := ⟨3, ![4, 64, 4000]⟩
abbrev S1x1x4000 : Shape := ⟨3, ![1, 1, 4000]⟩

abbrev nBuf : Space → Nat
  | .hbm => 47
  | .vmem => 5
  | .smem => 0
  | _ => 0

abbrev bufTy : (tb : Table) → Fin (tcTables nBuf tb) → BufTy
  | .hbm, ⟨0, _⟩ => ⟨S32x512x4000, .f32⟩
  | .hbm, ⟨1, _⟩ => ⟨S4000, .i1⟩
  | .hbm, ⟨2, _⟩ => ⟨S4000, .i32⟩
  | .hbm, ⟨3, _⟩ => ⟨S4000, .i32⟩
  | .hbm, ⟨4, _⟩ => ⟨S_, .i32⟩
  | .hbm, ⟨5, _⟩ => ⟨S4000, .i32⟩
  | .hbm, ⟨6, _⟩ => ⟨S4000, .i1⟩
  | .hbm, ⟨7, _⟩ => ⟨S_, .i32⟩
  | .hbm, ⟨8, _⟩ => ⟨S_, .i32⟩
  | .hbm, ⟨9, _⟩ => ⟨S4000, .i32⟩
  | .hbm, ⟨10, _⟩ => ⟨S4000, .i32⟩
  | .hbm, ⟨11, _⟩ => ⟨S4000, .i32⟩
  | .hbm, ⟨12, _⟩ => ⟨S_, .i32⟩
  | .hbm, ⟨13, _⟩ => ⟨S4000, .i32⟩
  | .hbm, ⟨14, _⟩ => ⟨S4000, .i1⟩
  | .hbm, ⟨15, _⟩ => ⟨S_, .i32⟩
  | .hbm, ⟨16, _⟩ => ⟨S4000, .i32⟩
  | .hbm, ⟨17, _⟩ => ⟨S4000, .i1⟩
  | .hbm, ⟨18, _⟩ => ⟨S4000, .i32⟩
  | .hbm, ⟨19, _⟩ => ⟨S4000, .i32⟩
  | .hbm, ⟨20, _⟩ => ⟨S_, .i32⟩
  | .hbm, ⟨21, _⟩ => ⟨S_, .i32⟩
  | .hbm, ⟨22, _⟩ => ⟨S4000, .i32⟩
  | .hbm, ⟨23, _⟩ => ⟨S4000, .i32⟩
  | .hbm, ⟨24, _⟩ => ⟨S_, .i32⟩
  | .hbm, ⟨25, _⟩ => ⟨S_, .i32⟩
  | .hbm, ⟨26, _⟩ => ⟨S4000, .i32⟩
  | .hbm, ⟨27, _⟩ => ⟨S4000, .i32⟩
  | .hbm, ⟨28, _⟩ => ⟨S4000, .i32⟩
  | .hbm, ⟨29, _⟩ => ⟨S_, .i32⟩
  | .hbm, ⟨30, _⟩ => ⟨S4000, .i32⟩
  | .hbm, ⟨31, _⟩ => ⟨S4000, .i1⟩
  | .hbm, ⟨32, _⟩ => ⟨S4000, .i1⟩
  | .hbm, ⟨33, _⟩ => ⟨S_, .i32⟩
  | .hbm, ⟨34, _⟩ => ⟨S4000, .i32⟩
  | .hbm, ⟨35, _⟩ => ⟨S4000, .i1⟩
  | .hbm, ⟨36, _⟩ => ⟨S4000, .i1⟩
  | .hbm, ⟨37, _⟩ => ⟨S_, .f32⟩
  | .hbm, ⟨38, _⟩ => ⟨S_, .f32⟩
  | .hbm, ⟨39, _⟩ => ⟨S4000, .f32⟩
  | .hbm, ⟨40, _⟩ => ⟨S4000, .f32⟩
  | .hbm, ⟨41, _⟩ => ⟨S4000, .f32⟩
  | .hbm, ⟨42, _⟩ => ⟨S_, .f32⟩
  | .hbm, ⟨43, _⟩ => ⟨S4000, .f32⟩
  | .hbm, ⟨44, _⟩ => ⟨S4000, .f32⟩
  | .hbm, ⟨45, _⟩ => ⟨S4000, .f32⟩
  | .hbm, ⟨46, _⟩ => ⟨S32x512x4000, .f32⟩
  | .local _ .vmem, ⟨0, _⟩ => ⟨S4x64x4000, .f32⟩
  | .local _ .vmem, ⟨1, _⟩ => ⟨S4x64x4000, .f32⟩
  | .local _ .vmem, ⟨2, _⟩ => ⟨S4000, .f32⟩
  | .local _ .vmem, ⟨3, _⟩ => ⟨S4x64x4000, .f32⟩
  | .local _ .vmem, ⟨4, _⟩ => ⟨S4x64x4000, .f32⟩
  | _, _ => ⟨S32x512x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_c_5 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_v19 : Ref sig .tc := ⟨.hbm, 41, rfl⟩
abbrev main_cst_9 : Ref sig .tc := ⟨.hbm, 42, rfl⟩
abbrev main_call4_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x64x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4000 : S_.BroadcastsInDim S4000 (![] : Fin 0 → Fin S4000.rank)
  inb_S4x64x4000_S4x64x4000_0_0_0 : ∀ a, (![0, 0, 0] : Fin 3 → Nat) a + S4x64x4000.size a ≤ S4x64x4000.size a
  h_S4x64x4000 : 0 < S4x64x4000.numel
  inb_S4000_S4000_0 : ∀ a, (![0] : Fin 1 → Nat) a + S4000.size a ≤ S4000.size a
  h_S4000 : 0 < S4000.numel
  shapeCasts_S4000_S4000 : S4000.ShapeCasts S4000
  shapeCasts_S4000_S1x1x4000 : S4000.ShapeCasts S1x1x4000
  shapeCasts_S1x1x4000_S1x1x4000 : S1x1x4000.ShapeCasts S1x1x4000
  broadcasts_S1x1x4000_S4x64x4000 : S1x1x4000.Broadcasts S4x64x4000
  rotates_S4x64x4000_d2 : S4x64x4000.Rotates 2 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x4000.size a ≤ S32x512x4000.size a
  hwx0_0 : ∀ i : grid0.Coords, EltTy.bits .f32 = 32 ∨ (Rect.block (s := S32x512x4000) S4x64x4000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4000.size a ≤ S4000.size a
  hwx0_1 : ∀ i : grid0.Coords, EltTy.bits .f32 = 32 ∨ (Rect.block (s := S4000) S4000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x4000.size a ≤ S32x512x4000.size a
  hwx0_2 : ∀ i : grid0.Coords, EltTy.bits .f32 = 32 ∨ (Rect.block (s := S32x512x4000) S4x64x4000.size (cc0_transform_2 i) (hinb0_2 i)).WholeWords (EltTy.packing .f32)

variable [Facts₀]

abbrev win0_0 : Pipeline.Window sig grid0 :=
  Pipeline.Window.ofSpec (Memref.whole main_arg0) S4x64x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4x64x4000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x4000 : Shape := ⟨3, ![32, 512, 4000]⟩
abbrev S4000 : Shape := ⟨1, ![4000]⟩
abbrev S_ : Shape := ⟨0, ![]⟩
abbrev S4000x1 : Shape := ⟨2, ![4000, 1]⟩
abbrev S1 : Shape := ⟨1, ![1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x512x4000, .f32⟩
  | .hbm, ⟨1, _⟩ => ⟨S4000, .i1⟩
  | .hbm, ⟨2, _⟩ => ⟨S4000, .i32⟩
  | .hbm, ⟨3, _⟩ => ⟨S4000, .i32⟩
  | .hbm, ⟨4, _⟩ => ⟨S_, .i32⟩
  | .hbm, ⟨5, _⟩ => ⟨S4000, .i32⟩
  | .hbm, ⟨6, _⟩ => ⟨S4000, .i1⟩
  | .hbm, ⟨7, _⟩ => ⟨S_, .i32⟩
  | .hbm, ⟨8, _⟩ => ⟨S_, .i32⟩
  | .hbm, ⟨9, _⟩ => ⟨S4000, .i32⟩
  | .hbm, ⟨10, _⟩ => ⟨S4000, .i32⟩
  | .hbm, ⟨11, _⟩ => ⟨S4000, .i32⟩
  | .hbm, ⟨12, _⟩ => ⟨S_, .i32⟩
  | .hbm, ⟨13, _⟩ => ⟨S4000, .i32⟩
  | .hbm, ⟨14, _⟩ => ⟨S4000, .i1⟩
  | .hbm, ⟨15, _⟩ => ⟨S_, .i32⟩
  | .hbm, ⟨16, _⟩ => ⟨S4000, .i32⟩
  | .hbm, ⟨17, _⟩ => ⟨S4000, .i1⟩
  | .hbm, ⟨18, _⟩ => ⟨S4000, .i32⟩
  | .hbm, ⟨19, _⟩ => ⟨S4000, .i32⟩
  | .hbm, ⟨20, _⟩ => ⟨S_, .i32⟩
  | .hbm, ⟨21, _⟩ => ⟨S_, .i32⟩
  | .hbm, ⟨22, _⟩ => ⟨S4000, .i32⟩
  | .hbm, ⟨23, _⟩ => ⟨S4000, .i32⟩
  | .hbm, ⟨24, _⟩ => ⟨S_, .i32⟩
  | .hbm, ⟨25, _⟩ => ⟨S_, .i32⟩
  | .hbm, ⟨26, _⟩ => ⟨S4000, .i32⟩
  | .hbm, ⟨27, _⟩ => ⟨S4000, .i32⟩
  | .hbm, ⟨28, _⟩ => ⟨S4000, .i32⟩
  | .hbm, ⟨29, _⟩ => ⟨S_, .i32⟩
  | .hbm, ⟨30, _⟩ => ⟨S4000, .i32⟩
  | .hbm, ⟨31, _⟩ => ⟨S4000, .i1⟩
  | .hbm, ⟨32, _⟩ => ⟨S_, .i32⟩
  | .hbm, ⟨33, _⟩ => ⟨S4000, .i32⟩
  | .hbm, ⟨34, _⟩ => ⟨S4000, .i32⟩
  | .hbm, ⟨35, _⟩ => ⟨S4000, .i32⟩
  | .hbm, ⟨36, _⟩ => ⟨S4000x1, .i32⟩
  | .hbm, ⟨37, _⟩ => ⟨S1, .i32⟩
  | .hbm, ⟨38, _⟩ => ⟨S_, .i32⟩
  | .hbm, ⟨39, _⟩ => ⟨S4000x1, .i32⟩
  | .hbm, ⟨40, _⟩ => ⟨S4000x1, .i1⟩
  | .hbm, ⟨41, _⟩ => ⟨S1x1, .i32⟩
  | .hbm, ⟨42, _⟩ => ⟨S4000x1, .i32⟩
  | .hbm, ⟨43, _⟩ => ⟨S4000x1, .i1⟩
  | .hbm, ⟨44, _⟩ => ⟨S4000x1, .i1⟩
  | .hbm, ⟨45, _⟩ => ⟨S_, .i1⟩
  | .hbm, ⟨46, _⟩ => ⟨S4000, .i1⟩
  | .hbm, ⟨47, _⟩ => ⟨S32x512x4000, .f32⟩
  | .hbm, ⟨48, _⟩ => ⟨S32x512x4000, .i1⟩
  | .hbm, ⟨49, _⟩ => ⟨S_, .f32⟩
  | .hbm, ⟨50, _⟩ => ⟨S32x512x4000, .f32⟩
  | .hbm, ⟨51, _⟩ => ⟨S32x512x4000, .f32⟩
  | _, _ => ⟨S32x512x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_c_5 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_v12 : Ref sig .tc := ⟨.hbm, 28, rfl⟩
abbrev main_call4_c : Ref sig .tc := ⟨.hbm, 29, rfl⟩
abbrev main_call4_v0 : Ref sig .tc := ⟨.hbm, 30, rfl⟩
abbrev main_call4_v1 : Ref sig .tc := ⟨.hbm, 31, rfl⟩
abbrev main_call4_c_0 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_call4_v5 : Ref sig .tc := ⟨.hbm, 36, rfl⟩
abbrev main_call4_c_1 : Ref sig .tc := ⟨.hbm, 37, rfl⟩
abbrev main_call4_c_2 : Ref sig .tc := ⟨.hbm, 38, rfl⟩
abbrev main_call4_v6 : Ref sig .tc := ⟨.hbm, 39, rfl⟩
abbrev main_call4_v7 : Ref sig .tc := ⟨.hbm, 40, rfl⟩
abbrev main_call4_v8 : Ref sig .tc := ⟨.hbm, 41, rfl⟩
abbrev main_call4_v9 : Ref sig .tc := ⟨.hbm, 42, rfl⟩
abbrev main_call4_v10 : Ref sig .tc := ⟨.hbm, 43, rfl⟩
abbrev main_call4_v11 : Ref sig .tc := ⟨.hbm, 44, rfl⟩
abbrev main_call4_c_3 : Ref sig .tc := ⟨.hbm, 45, rfl⟩
abbrev main_call4_v12 : Ref sig .tc := ⟨.hbm, 46, rfl⟩
abbrev main_call4_v13 : Ref sig .tc := ⟨.hbm, 47, rfl⟩
abbrev main_call4_v14 : Ref sig .tc := ⟨.hbm, 48, rfl⟩
abbrev main_call4_cst : Ref sig .tc := ⟨.hbm, 49, rfl⟩
abbrev main_call4_v15 : Ref sig .tc := ⟨.hbm, 50, rfl⟩
abbrev main_v13 : Ref sig .tc := ⟨.hbm, 51, rfl⟩

abbrev nD : Nat := 1
abbrev τ : Topo := Topo.v7x

variable {F : FTy → Type} [FloatOps F]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  bcast_S_S4000x1 : S_.BroadcastsInDim S4000x1 (![] : Fin 0 → Fin S4000x1.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  reducesTo_S4000x1_S4000_d1 : S4000x1.ReducesTo [1] S4000
  h_S_ : 0 < S_.numel
  bcast_S4000_S32x512x4000_2 : S4000.BroadcastsInDim S32x512x4000 (![2] : Fin 1 → Fin S32x512x4000.rank)
  bcast_S_S32x512x4000 : S_.BroadcastsInDim S32x512x4000 (![] : Fin 0 → Fin S32x512x4000.rank)
  gather_S32x512x4000_S4000x1_S32x512x4000_01_2_n_n_2_1_325121_wf : GatherDims.WF S32x512x4000 S4000x1 S32x512x4000 [0, 1] [2] [] [2] [] 1 ![32, 512, 1]

variable [Facts₀]

def gather_S32x512x4000_S4000x1_S32x512x4000_01_2_n_n_2_1_325121 : GatherDims S32x512x4000 S4000x1 S32x512x4000 where
  offsetDims := [0, 1]
  collapsedSliceDims := [2]
  operandBatchingDims := []
  startIndicesBatchingDims := []
  startIndexMap := [2]
  indexVectorDim := 1
  sliceSizes := ![32, 512, 1]
  wf := gather_S32x512x4000_S4000x1_S32x512x4000_01_2_n_n_2_1_325121_wf

class Facts : Prop extends Facts₀ where

variable [Facts]
-- ==== Proof.NeighbourWords.lean ====
/-
  The arithmetic of ONE position `t` of the time axis (extent 4000), on machine words, shared by the two programs.

  Both programs compute, from the position `t` and the position's random bit, the NEIGHBOUR position `nb t`: `1` at
  `t = 0`, `3998` at `t = 3999`, and otherwise `t + 1` when the bit is positive and `t − 1` when it is not. So `nb t`
  is always `t + 1` (with `t < 3999`) or `t − 1` (with `0 < t`): `nbWord_cases`.

  One program turns this into a CODE per position — `+1` when the position is masked and `nb t − t > 0`, `−1` when it
  is masked and `nb t − t < 0`, else `0` — and selects between the entry one step ahead (cyclically), the entry one
  step behind (cyclically) and the entry itself by the sign of the code. The other reads the entry at the position
  `src t`: `nb t` when masked, else `t`, pushed through the wrap of negative indices (`+ 4000` below zero) and the
  clamp into `[0, 3999]` of an index read. `kernel_select_eq`: the two selections are the same entry. The cyclic
  wrap-around of the steps is never used: the step ahead is taken only where `t < 3999`, the step behind only
  where `0 < t`. No arithmetic on the entries themselves takes place, and nothing about them is assumed.
-/
import Idealize.ShloMosaic.Lib.ValueIdx
import Idealize.ShloMosaic.Lib.Affine
import Idealize.ShloMosaic.PureOps.IdealRules

noncomputable section

namespace Cert.Neighbour

open Idealize.ShloMosaic Idealize.ShloMosaic.ValueIdx

/-! ## The words -/

/-- The neighbour position of the position whose word is `t`, from the position's bit. -/
def nbWord (t bit : BitVec 32) : BitVec 32 :=
  Scalar.select (IntOp.cmpi .eq t 0#32) 1#32
    (Scalar.select (IntOp.cmpi .eq t 3999#32) 3998#32
      (IntOp.addi t (Scalar.select (IntOp.cmpi .sgt bit 0#32) 1#32 4294967295#32)))

/-- The selection code of a position, a float: `1.0` (masked, the neighbour ahead), `−1.0` (masked, the neighbour
    behind), `0.0` (not masked). -/
def codeWord {F : FTy → Type} [FloatOps F] (t bit : BitVec 32) (mask : BitVec 1) : F .f32 :=
  Scalar.select (IntOp.andi mask (IntOp.cmpi .sgt (IntOp.subi (nbWord t bit) t) 0#32)) (FloatOps.ofBits .f32 0x3F800000#32)
    (Scalar.select (IntOp.andi mask (IntOp.cmpi .slt (IntOp.subi (nbWord t bit) t) 0#32)) (FloatOps.ofBits .f32 0xBF800000#32)
      (FloatOps.ofBits .f32 0x00000000#32))

/-- The position an index read is asked for: the neighbour when masked, else the position itself. -/
def gidxWord (t bit : BitVec 32) (mask : BitVec 1) : BitVec 32 := Scalar.select mask (nbWord t bit) t

/-- A negative index counts from the end. -/
def wrapWord (g : BitVec 32) : BitVec 32 := Scalar.select (IntOp.cmpi .slt g 0#32) (IntOp.addi g 4000#32) g

/-- The test that an index lies in `[0, 3999]`. -/
def inRangeWord (g : BitVec 32) : BitVec 1 := IntOp.andi (IntOp.cmpi .sge g 0#32) (IntOp.cmpi .sle g 3999#32)

/-- THE SOURCE POSITION of position `t`: the asked-for index, wrapped, read signed and clamped into `[0, 3999]`. -/
def srcPos (mask : BitVec 1) (bit : BitVec 32) (t : Fin 4000) : Fin 4000 :=
  ⟨min (wrapWord (gidxWord (BitVec.ofNat 32 t.val) bit mask)).toInt.toNat 3999, by omega⟩

/-! ## Small words are their numbers -/

theorem toNat_ofNat_small (n : Nat) (hn : n < 4001) : (BitVec.ofNat 32 n).toNat = n := by
  rw [BitVec.toNat_ofNat]; exact Nat.mod_eq_of_lt (by omega)

theorem toInt_ofNat_small (n : Nat) (hn : n < 4001) : (BitVec.ofNat 32 n).toInt = (n : Int) := by
  have h1 := toNat_ofNat_small n hn
  rw [BitVec.toInt_eq_toNat_of_lt (by rw [h1]; omega), h1]

theorem ofNat_ne_of_ne (n k : Nat) (hn : n < 4001) (hk : k < 4001) (h : n ≠ k) : BitVec.ofNat 32 n ≠ BitVec.ofNat 32 k :=
  fun e => h (by have := congrArg BitVec.toNat e; rwa [toNat_ofNat_small n hn, toNat_ofNat_small k hk] at this)

/-! ## The neighbour is one step ahead or one step behind -/

theorem addi_one (n : Nat) : IntOp.addi (BitVec.ofNat 32 n) 1#32 = BitVec.ofNat 32 (n + 1) := by
  unfold IntOp.addi; exact (BitVec.ofNat_add n 1).symm

theorem addi_neg_one (n : Nat) (hn : 0 < n) : IntOp.addi (BitVec.ofNat 32 n) 4294967295#32 = BitVec.ofNat 32 (n - 1) := by
  unfold IntOp.addi
  apply BitVec.eq_of_toNat_eq
  rw [BitVec.toNat_add, BitVec.toNat_ofNat, BitVec.toNat_ofNat, BitVec.toNat_ofNat]
  omega

theorem nbWord_cases (t : Fin 4000) (bit : BitVec 32) :
    (t.val < 3999 ∧ nbWord (BitVec.ofNat 32 t.val) bit = BitVec.ofNat 32 (t.val + 1))
      ∨ (0 < t.val ∧ nbWord (BitVec.ofNat 32 t.val) bit = BitVec.ofNat 32 (t.val - 1)) := by
  have ht := t.isLt
  unfold nbWord
  by_cases h0 : t.val = 0
  · left
    rw [h0, IntOp.cmpi_eq.mpr (rfl : BitVec.ofNat 32 0 = 0#32), select_one]
    exact ⟨by omega, rfl⟩
  · rw [eq_zero_of_ne_one (fun h => ofNat_ne_of_ne t.val 0 (by omega) (by omega) h0 (IntOp.cmpi_eq.mp h)), select_zero]
    by_cases h1 : t.val = 3999
    · right
      rw [h1, IntOp.cmpi_eq.mpr (rfl : BitVec.ofNat 32 3999 = 3999#32), select_one]
      exact ⟨by omega, rfl⟩
    · rw [eq_zero_of_ne_one (fun h => ofNat_ne_of_ne t.val 3999 (by omega) (by omega) h1 (IntOp.cmpi_eq.mp h)), select_zero]
      rcases BitVec.eq_zero_or_eq_one (IntOp.cmpi .sgt bit 0#32) with hb | hb
      · right
        rw [hb, select_zero, addi_neg_one _ (by omega)]
        exact ⟨by omega, rfl⟩
      · left
        rw [hb, select_one, addi_one]
        exact ⟨by omega, rfl⟩

/-! ## The step between the neighbour and the position -/

theorem subi_succ (n : Nat) : IntOp.subi (BitVec.ofNat 32 (n + 1)) (BitVec.ofNat 32 n) = 1#32 := by
  unfold IntOp.subi
  apply BitVec.eq_of_toNat_eq
  rw [BitVec.toNat_sub, BitVec.toNat_ofNat, BitVec.toNat_ofNat, BitVec.toNat_ofNat]
  omega

theorem subi_pred (n : Nat) (hn : 0 < n) : IntOp.subi (BitVec.ofNat 32 (n - 1)) (BitVec.ofNat 32 n) = 4294967295#32 := by
  unfold IntOp.subi
  apply BitVec.eq_of_toNat_eq
  rw [BitVec.toNat_sub, BitVec.toNat_ofNat, BitVec.toNat_ofNat, BitVec.toNat_ofNat]
  omega

/-! ## The source position, from the asked-for index -/

/-- An index in `[0, 3999]` is not negative, so the wrap leaves it alone. -/
theorem wrapWord_small (n : Nat) (hn : n < 4000) : wrapWord (BitVec.ofNat 32 n) = BitVec.ofNat 32 n := by
  unfold wrapWord
  have hz : IntOp.cmpi .slt (BitVec.ofNat 32 n) 0#32 = 0#1 := eq_zero_of_ne_one (fun h => by
    have := IntOp.cmpi_slt.mp h
    rw [toInt_ofNat_small n (by omega), show (0#32 : BitVec 32).toInt = 0 from by decide] at this
    omega)
  rw [hz, select_zero]

/-- An index in `[0, 3999]` passes the range test. -/
theorem inRangeWord_small (n : Nat) (hn : n < 4000) : inRangeWord (BitVec.ofNat 32 n) = 1#1 := by
  unfold inRangeWord
  refine IntOp.andi_eq_one.mpr ⟨IntOp.cmpi_sge.mpr ?_, IntOp.cmpi_sle.mpr ?_⟩
  · rw [toInt_ofNat_small n (by omega), show (0#32 : BitVec 32).toInt = 0 from by decide]; omega
  · rw [toInt_ofNat_small n (by omega), show (3999#32 : BitVec 32).toInt = 3999 from by decide]; omega

/-- When the asked-for index is the word of `n < 4000`, the source position is `n`. -/
theorem srcPos_val (mask : BitVec 1) (bit : BitVec 32) (t : Fin 4000) (n : Nat) (hn : n < 4000)
    (hg : gidxWord (BitVec.ofNat 32 t.val) bit mask = BitVec.ofNat 32 n) : (srcPos mask bit t).val = n := by
  show min (wrapWord (gidxWord (BitVec.ofNat 32 t.val) bit mask)).toInt.toNat 3999 = n
  rw [hg, wrapWord_small n hn, toInt_ofNat_small n (by omega)]
  omega

/-- The asked-for index is always the word of a position: of the source position itself. -/
theorem gidxWord_eq (mask : BitVec 1) (bit : BitVec 32) (t : Fin 4000) :
    ∃ n : Nat, n < 4000 ∧ gidxWord (BitVec.ofNat 32 t.val) bit mask = BitVec.ofNat 32 n := by
  have ht := t.isLt
  unfold gidxWord
  rcases BitVec.eq_zero_or_eq_one mask with hm | hm
  · rw [hm, select_zero]; exact ⟨t.val, ht, rfl⟩
  · rw [hm, select_one]
    rcases nbWord_cases t bit with ⟨h, e⟩ | ⟨h, e⟩
    · exact ⟨t.val + 1, by omega, e⟩
    · exact ⟨t.val - 1, by omega, e⟩

/-! ## The float codes and their signs, on the extended reals -/

theorem zero_lt_one_ereal : (0 : EReal) < 1 := by exact_mod_cast (zero_lt_one : (0 : ℝ) < 1)
theorem neg_one_lt_zero_ereal : (-1 : EReal) < 0 := by
  have h : ((-1 : ℝ) : EReal) < ((0 : ℝ) : EReal) := EReal.coe_lt_coe_iff.mpr (by norm_num)
  simpa using h

theorem code_one : Ideal.ofBits .f32 0x3F800000#32 = 1 := IdealRules.sign_bit.ideal_onePat .f32
theorem code_neg_one : Ideal.ofBits .f32 0xBF800000#32 = -1 := IdealRules.sign_bit.ideal_negOnePat .f32
theorem code_zero : Ideal.ofBits .f32 0x00000000#32 = 0 := IdealRules.sign_bit.ideal_zero .f32

/-! ## The two selections are one entry -/

/-- THE BRIDGE at one position, for any family `y` of entries along the time axis: selecting by the sign of the code
    between the entry one step ahead (`kp`, cyclically), the entry one step behind (`km`, cyclically) and the entry at
    `t` gives the entry at the source position. -/
theorem kernel_select_eq {α : Type} (y : Fin 4000 → α) (mask : BitVec 1) (bit : BitVec 32) (t kp km : Fin 4000)
    (hp : kp.val = (t.val + 1) % 4000) (hm : km.val = (t.val + 3999) % 4000) :
    Scalar.select (Ideal.cmp .ogt (codeWord (F := Ideal) (BitVec.ofNat 32 t.val) bit mask) (Ideal.ofBits .f32 0x00000000#32)) (y kp)
        (Scalar.select (Ideal.cmp .olt (codeWord (F := Ideal) (BitVec.ofNat 32 t.val) bit mask) (Ideal.ofBits .f32 0x00000000#32))
          (y km) (y t))
      = y (srcPos mask bit t) := by
  have ht := t.isLt
  rcases BitVec.eq_zero_or_eq_one mask with hmask | hmask
  · -- not masked: the code is 0, neither comparison holds, the entry is read where it is
    have hc : codeWord (F := Ideal) (BitVec.ofNat 32 t.val) bit mask = 0 := by
      unfold codeWord
      rw [hmask]
      simp only [show ∀ c : BitVec 1, IntOp.andi 0#1 c = 0#1 from by decide, select_zero]
      exact code_zero
    have hs : srcPos mask bit t = t := Fin.ext (srcPos_val mask bit t t.val ht (by unfold gidxWord; rw [hmask, select_zero]))
    rw [hc, code_zero, hs]
    simp [Ideal.cmp, Scalar.select]
  · rcases nbWord_cases t bit with ⟨h, e⟩ | ⟨h, e⟩
    · -- masked, the neighbour ahead: the step is +1, the code is 1 > 0
      have hc : codeWord (F := Ideal) (BitVec.ofNat 32 t.val) bit mask = 1 := by
        unfold codeWord
        rw [hmask, e, subi_succ, show IntOp.andi 1#1 (IntOp.cmpi .sgt 1#32 0#32) = 1#1 from by decide, select_one]
        exact code_one
      have hs : srcPos mask bit t = kp :=
        Fin.ext ((srcPos_val mask bit t (t.val + 1) (by omega) (by unfold gidxWord; rw [hmask, select_one, e])).trans (by omega))
      rw [hc, code_zero, hs]
      simp [Ideal.cmp, Scalar.select, zero_lt_one_ereal]
    · -- masked, the neighbour behind: the step is −1, the code is −1 < 0
      have hc : codeWord (F := Ideal) (BitVec.ofNat 32 t.val) bit mask = -1 := by
        unfold codeWord
        rw [hmask, e, subi_pred _ h, show IntOp.andi 1#1 (IntOp.cmpi .sgt 4294967295#32 0#32) = 0#1 from by decide, select_zero,
          show IntOp.andi 1#1 (IntOp.cmpi .slt 4294967295#32 0#32) = 1#1 from by decide, select_one]
        exact code_neg_one
      have hs : srcPos mask bit t = km :=
        Fin.ext ((srcPos_val mask bit t (t.val - 1) (by omega) (by unfold gidxWord; rw [hmask, select_one, e])).trans (by omega))
      rw [hc, code_zero, hs]
      simp [Ideal.cmp, Scalar.select, neg_one_lt_zero_ereal, not_lt.mpr neg_one_lt_zero_ereal.le]

end Cert.Neighbour

end
-- ==== Proof.NeighbourVectors.lean ====
/-
  The per-position words of NeighbourWords.lean laid along the time axis: the vectors of extent 4000 that the two
  programs compute on the host from the mask and the bits, each entry the word of its own position.
-/
import proofs.«176636_j84765474553865_1_alg».proof.Proof.NeighbourWords

noncomputable section

namespace Cert.Neighbour

open Idealize.ShloMosaic Idealize.ShloMosaic.ValueIdx

/-- The time axis. -/
abbrev T4000 : Shape := ⟨1, ![4000]⟩

/-- The selection codes along the time axis: entry `t` is the code of position `t`. -/
def codeVec {F : FTy → Type} [FloatOps F] (mask : IVec T4000 1) (bits : IVec T4000 32) : FVec F T4000 .f32 :=
  fun i => codeWord (BitVec.ofNat 32 (i 0).val) (bits i) (mask i)

/-- The asked-for positions along the time axis: entry `t` is the neighbour of `t` when `t` is masked, else `t`. -/
def gidxVec (mask : IVec T4000 1) (bits : IVec T4000 32) : IVec T4000 32 :=
  fun i => gidxWord (BitVec.ofNat 32 (i 0).val) (bits i) (mask i)

theorem codeVec_apply {F : FTy → Type} [FloatOps F] (mask : IVec T4000 1) (bits : IVec T4000 32) (t : Fin 4000) :
    codeVec (F := F) mask bits (ix1 t) = codeWord (BitVec.ofNat 32 t.val) (bits (ix1 t)) (mask (ix1 t)) := rfl

theorem gidxVec_apply (mask : IVec T4000 1) (bits : IVec T4000 32) (t : Fin 4000) :
    gidxVec mask bits (ix1 t) = gidxWord (BitVec.ofNat 32 t.val) (bits (ix1 t)) (mask (ix1 t)) := rfl

/-- THE RESULT both programs compute, as one function of the three argument arrays: entry `(a, b, t)` of the result
    is entry `(a, b, src t)` of the data, `src t` the source position of `t` under the mask and the bits. -/
def shifted {α : Type} (x : (⟨3, ![32, 512, 4000]⟩ : Shape).Idx → α) (mask : IVec T4000 1) (bits : IVec T4000 32) :
    (⟨3, ![32, 512, 4000]⟩ : Shape).Idx → α :=
  fun i => x (ix3 (n0 := 32) (n1 := 512) (n2 := 4000) (i 0) (i 1)
    (srcPos (mask (ix1 (n := 4000) (i 2))) (bits (ix1 (n := 4000) (i 2))) (i 2)))

theorem shifted_apply {α : Type} (x : (⟨3, ![32, 512, 4000]⟩ : Shape).Idx → α) (mask : IVec T4000 1) (bits : IVec T4000 32)
    (a : Fin 32) (b : Fin 512) (t : Fin 4000) :
    shifted x mask bits (ix3 a b t) = x (ix3 a b (srcPos (mask (ix1 t)) (bits (ix1 t)) t)) := rfl

end Cert.Neighbour

end
-- ==== Proof.KernelHost.lean ====
/-
  What the kernel's region finds in its second operand: the host operations before the region compute, from the mask
  and the bits, the vector of selection codes — entry `t` the code of position `t` (`Cert.Neighbour.codeVec`).
-/
import proofs.«176636_j84765474553865_1_alg».proof.Proof.Gen.KernelIdeal.Frame
import proofs.«176636_j84765474553865_1_alg».proof.Proof.NeighbourVectors
import Idealize.ShloMosaic.Lib.StableHlo.Run

noncomputable section

namespace Cert.KernelIdeal.HostSide

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ)

set_option maxRecDepth 8192 in
set_option maxHeartbeats 1000000 in
/-- The code vector at region entry is `codeVec` of the mask and the bits as launched. -/
theorem code_at_entry (c : Dev nD) :
    (V m c main_v21 : FVec F S4000 .f32)
      = Cert.Neighbour.codeVec (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

end Cert.KernelIdeal.HostSide

end
-- ==== Proof.LibRotateLast.lean ====
/-
  A rotation (`tpu.dynamic_rotate`, no stride) of an array `[A, B, N]` along its last axis, read at coordinates: entry
  `(a, b, t)` of the rotated array is the operand's entry `(a, b, k)`, where `k` is `t` moved back by the amount around
  the end. Any extents, any element type.
-/
import Idealize.ShloMosaic.Lib.ValueIdx
import Idealize.ShloMosaic.Lib.KernelVsHost

noncomputable section

namespace Cert.LibRotateLast

open Idealize.ShloMosaic Idealize.ShloMosaic.ValueIdx

variable {α : Type}

/-- THE ROTATION READ AT `(a, b, t)`: the operand at `(a, b, k)`, `k = (t + N − amount mod N) mod N`. -/
theorem rotate_lastAxis_apply {A B N : Nat} (sb : BitVec 32) (h : (⟨3, ![A, B, N]⟩ : Shape).Rotates 2 none)
    (x : (⟨3, ![A, B, N]⟩ : Shape).Idx → α) (a : Fin A) (b : Fin B) (t k : Fin N)
    (hk : k.val = (t.val + N - sb.toNat % N) % N) :
    dynamicRotate 2 sb none x h (ix3 a b t) = x (ix3 a b k) :=
  dynamicRotate_apply 2 sb x h (ix3 a b t) (ix3 a b k) (fun c => by
    match c with
    | ⟨0, _⟩ => rw [if_neg (fun he => absurd (congrArg Fin.val he) (show ¬ (0 : Nat) = 2 by decide))]
    | ⟨1, _⟩ => rw [if_neg (fun he => absurd (congrArg Fin.val he) (show ¬ (1 : Nat) = 2 by decide))]
    | ⟨2, h2⟩ => rw [if_pos (show (⟨2, h2⟩ : Fin (⟨3, ![A, B, N]⟩ : Shape).rank) = 2 from Fin.ext rfl)]; exact hk)

end Cert.LibRotateLast

end
-- ==== Proof.LibUnitAxes.lean ====
/-
  A vector given two leading unit axes by a shape cast, read at an index given by coordinates: an `[a]` array cast
  to `[1, 1, a]` reads the operand at the last coordinate, whatever the two unit coordinates.
-/
import Idealize.ShloMosaic.Lib.Pipeline.Value
import Idealize.ShloMosaic.Lib.ValueIdx

namespace Idealize.ShloMosaic.UnitAxes

open Idealize.ShloMosaic Idealize.ShloMosaic.ValueIdx

variable {α : Type}

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

end Idealize.ShloMosaic.UnitAxes
-- ==== Proof.LibRowLift.lean ====
/-
  A row `[1, 1, c]` broadcast to `[a, b, c]`, and a vector `[c]` first cast to that row, read at coordinates: entry
  `(p, q, t)` is the vector's entry `t`. Any extents, any element type.
-/
import Idealize.ShloMosaic.Lib.Pipeline.Value
import Idealize.ShloMosaic.Lib.ValueIdx
import proofs.«176636_j84765474553865_1_alg».proof.Proof.LibUnitAxes

noncomputable section

namespace Cert.LibRowLift

open Idealize.ShloMosaic Idealize.ShloMosaic.ValueIdx

variable {α : Type}

/-- A `[1, 1, c]` array broadcast to `[a, b, c]` reads, at `(p, q, t)`, the operand at `(0, 0, t)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (t : Fin c) :
    broadcastTo ⟨3, ![a, b, c]⟩ v h (ix3 p q t) = v (ix3 (0 : Fin 1) (0 : Fin 1) t) :=
  broadcastTo_apply v h (ix3 p q t) (ix3 (0 : Fin 1) (0 : Fin 1) t) (fun d => by
    match d with
    | ⟨0, h0⟩ => exact (if_pos (show (⟨3, ![1, 1, c]⟩ : Shape).size ⟨0, h0⟩ = 1 from rfl)).symm
    | ⟨1, h1⟩ => exact (if_pos (show (⟨3, ![1, 1, c]⟩ : Shape).size ⟨1, h1⟩ = 1 from rfl)).symm
    | ⟨2, _⟩ =>
      show t.val = if c = 1 then 0 else t.val
      split
      · have := t.isLt; omega
      · rfl)

/-- A vector `[c]` cast to the row `[1, 1, c]` and broadcast to `[a, b, c]` reads, at `(p, q, t)`, the vector at `t`. -/
theorem lifted_row_apply {a b c : ℕ} (x : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (t : Fin c) :
    broadcastTo ⟨3, ![a, b, c]⟩ (shapeCast ⟨3, ![1, 1, c]⟩ x h1) h2 (ix3 p q t) = x (ix1 t) :=
  (broadcastTo_11c_abc_apply _ h2 p q t).trans (UnitAxes.shapeCast_a_11a_apply x h1 0 0 t)

end Cert.LibRowLift

end
-- ==== Proof.KernelPayload.lean ====
/-
  The kernel body's stored value at one index of its block `[4, 64, 4000]`, on the extended reals: with the loaded
  code vector the vector of selection codes, entry `(p, q, t)` is the data block's entry `(p, q, src t)`. The body
  rotates the block by 3999 and by 1 along the time axis (entry `t` of the first is the block's `t + 1`, of the second
  its `t − 1`, both cyclically), lifts the code vector to a row and broadcasts it over the block, and selects by the
  code's sign; `Cert.Neighbour.kernel_select_eq` reads that selection as the one entry.
-/
import proofs.«176636_j84765474553865_1_alg».proof.Proof.Gen.KernelIdeal.Skeleton
import proofs.«176636_j84765474553865_1_alg».proof.Proof.NeighbourVectors
import proofs.«176636_j84765474553865_1_alg».proof.Proof.LibRotateLast
import proofs.«176636_j84765474553865_1_alg».proof.Proof.LibRowLift

noncomputable section

namespace Cert.KernelIdeal.Payload

open Cert.KernelIdeal Cert.KernelIdeal.Gen Idealize.ShloMosaic Idealize.ShloMosaic.ValueIdx Cert.Neighbour

/-- THE BODY'S STORED VALUE AT `(p, q, t)`. -/
theorem payload_apply (x0 : Vec Ideal S4x64x4000 .f32) (x1 : Vec Ideal S4000 .f32) (mask : IVec S4000 1) (bits : IVec S4000 32)
    (hx1 : x1 = codeVec (F := Ideal) mask bits) (p : Fin 4) (q : Fin 64) (t : Fin 4000) :
    k0_pay1 (F := Ideal) x0 x1 (ix3 p q t) = x0 (ix3 p q (srcPos (mask (ix1 t)) (bits (ix1 t)) t)) := by
  subst hx1
  have ht := t.isLt
  -- the two rotations, read at the index
  have hplus : dynamicRotate 2 3999#32 none x0 rotates_S4x64x4000_d2 (ix3 p q t)
      = x0 (ix3 p q (⟨(t.val + 1) % 4000, Nat.mod_lt _ (by decide)⟩ : Fin 4000)) :=
    Cert.LibRotateLast.rotate_lastAxis_apply 3999#32 rotates_S4x64x4000_d2 x0 p q t _ (by
      show (t.val + 1) % 4000 = (t.val + 4000 - (3999#32 : BitVec 32).toNat % 4000) % 4000
      rw [show (3999#32 : BitVec 32).toNat = 3999 from by decide]; omega)
  have hminus : dynamicRotate 2 1#32 none x0 rotates_S4x64x4000_d2 (ix3 p q t)
      = x0 (ix3 p q (⟨(t.val + 3999) % 4000, Nat.mod_lt _ (by decide)⟩ : Fin 4000)) :=
    Cert.LibRotateLast.rotate_lastAxis_apply 1#32 rotates_S4x64x4000_d2 x0 p q t _ (by
      show (t.val + 3999) % 4000 = (t.val + 4000 - (1#32 : BitVec 32).toNat % 4000) % 4000
      rw [show (1#32 : BitVec 32).toNat = 1 from by decide]; omega)
  -- the code vector lifted to a row and broadcast over the block, read at the index
  have hcode : broadcastTo S4x64x4000
        (shapeCast S1x1x4000 (shapeCast S1x1x4000 (shapeCast S4000 (codeVec (F := Ideal) mask bits) shapeCasts_S4000_S4000)
          shapeCasts_S4000_S1x1x4000) shapeCasts_S1x1x4000_S1x1x4000) broadcasts_S1x1x4000_S4x64x4000 (ix3 p q t)
      = codeWord (F := Ideal) (BitVec.ofNat 32 t.val) (bits (ix1 t)) (mask (ix1 t)) := by
    rw [shapeCast_self _ shapeCasts_S4000_S4000, shapeCast_self _ shapeCasts_S1x1x4000_S1x1x4000]
    exact Cert.LibRowLift.lifted_row_apply _ shapeCasts_S4000_S1x1x4000 broadcasts_S1x1x4000_S4x64x4000 p q t
  show Scalar.select (Ideal.cmp .ogt (broadcastTo S4x64x4000
        (shapeCast S1x1x4000 (shapeCast S1x1x4000 (shapeCast S4000 (codeVec (F := Ideal) mask bits) shapeCasts_S4000_S4000)
          shapeCasts_S4000_S1x1x4000) shapeCasts_S1x1x4000_S1x1x4000) broadcasts_S1x1x4000_S4x64x4000 (ix3 p q t))
        (Ideal.ofBits .f32 0x00000000#32))
      (dynamicRotate 2 3999#32 none x0 rotates_S4x64x4000_d2 (ix3 p q t))
      (Scalar.select (Ideal.cmp .olt (broadcastTo S4x64x4000
          (shapeCast S1x1x4000 (shapeCast S1x1x4000 (shapeCast S4000 (codeVec (F := Ideal) mask bits) shapeCasts_S4000_S4000)
            shapeCasts_S4000_S1x1x4000) shapeCasts_S1x1x4000_S1x1x4000) broadcasts_S1x1x4000_S4x64x4000 (ix3 p q t))
          (Ideal.ofBits .f32 0x00000000#32))
        (dynamicRotate 2 1#32 none x0 rotates_S4x64x4000_d2 (ix3 p q t))
        (x0 (ix3 p q t))) = _
  rw [hcode, hplus, hminus]
  exact kernel_select_eq (fun k => x0 (ix3 p q k)) (mask (ix1 t)) (bits (ix1 t)) t _ _ rfl rfl

end Cert.KernelIdeal.Payload

end
-- ==== Proof.KernelValue.lean ====
/-
  From the kernel's blocks to its whole result array, on the extended reals. The grid is 8 × 8; point `(i, j)` stages
  block `(i, j, 0)` of the data — rows `4i … 4i+3`, columns `64j … 64j+63`, the whole time axis — and the whole code
  vector, and writes back the same block of the result. What the body leaves in a block is, entry by entry, the data
  block's entry at the source position along the time axis (KernelPayload.lean), and a block holds whole time lines,
  so the block written back is the block of `shifted data mask bits`; the 64 blocks tile the array, so the result
  array ends holding that function (`final`), and the frame run restated with it is `run`.
-/
import proofs.«176636_j84765474553865_1_alg».proof.Proof.Gen.KernelIdeal.Value
import proofs.«176636_j84765474553865_1_alg».proof.Proof.KernelHost
import proofs.«176636_j84765474553865_1_alg».proof.Proof.KernelPayload

noncomputable section

namespace Cert.KernelIdeal.BlockValue

open Cert.KernelIdeal Cert.KernelIdeal.Gen Idealize.ShloMosaic Idealize.ShloMosaic.TcCoe Idealize.SL.Sem
  Idealize.ShloMosaic.ValueIdx Cert.Neighbour
open Idealize.ShloMosaic.Pipeline (Dat)

variable (m : (ℓ : Loc nD τ sig) → Buf (Elt Ideal) ℓ) (ρ : Dev nD → PrngReg)

theorem off3 : (![0, 0, 0] : Fin 3 → Nat) = fun _ => 0 := funext fun a => by fin_cases a <;> rfl
theorem off1 : (![0] : Fin 1 → Nat) = fun _ => 0 := funext fun a => by fin_cases a <;> rfl

/-- The printed index maps over the 64 grid points: the data's block index is the result's, both stay at 0 along the
    time axis and below 8 on the two tiled axes, and the code vector's block index is 0. -/
theorem index_maps : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 1) = 0
    ∧ win0_2.index t (0 : Fin 3) ≤ 7
    ∧ win0_2.index t (1 : Fin 3) ≤ 7 :=
  (by decide +kernel : ∀ t : Fin grid0.N, _)

/-- Every block `(q0, q1, 0)` of the result is some point's. -/
theorem index_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- The code vector's block at any point is the whole code vector: the codes of the mask and the bits as launched. -/
theorem code_block (c : Dev nD) (t : Fin cfg0.N) :
    (iblk m c 1 t : Vec Ideal S4000 .f32)
      = codeVec (F := Ideal) (m ((c : Thread nD τ).loc main_arg1)) (m ((c : Thread nD τ).loc main_arg2)) := by
  obtain ⟨-, -, -, -, e1, -, -⟩ := index_maps t
  funext y
  show V m c main_v21 (((cfg0.win 1).blk t).view.emb y) = _
  rw [Cert.KernelIdeal.HostSide.code_at_entry m c]
  refine congrArg _ (funext fun a => Fin.ext ?_)
  match a with
  | ⟨0, _⟩ =>
    show win0_1.index t (0 : Fin 1) * 4000 + 1 * (y 0).val = (y 0).val
    omega

/-- The data's block at a point, read at block coordinates `(p, q, s)`, is the data at the point's rows and columns. -/
theorem data_block (c : Dev nD) (t : Fin cfg0.N) (p : Fin 4) (q : Fin 64) (s : Fin 4000) :
    (iblk m c 0 t : Vec Ideal S4x64x4000 .f32) (ix3 p q s)
      = (m ((c : Thread nD τ).loc main_arg0) : S32x512x4000.Idx → EReal) (((cfg0.win 0).blk t).view.emb (ix3 p q s)) := by
  show V m c main_arg0 (((cfg0.win 0).blk t).view.emb (ix3 p q s)) = _
  rw [V_main_arg0]

/-- WHAT POINT `t` WRITES BACK is block `t` of the shifted data. -/
theorem flushed_eq (c : Dev nD) (t : Fin cfg0.N) :
    (dats m 0 c).flushed 2 t = ((cfg0.win 2).blk t).view.read (Elt Ideal)
      (shifted (m ((c : Thread nD τ).loc main_arg0) : S32x512x4000.Idx → EReal) (m ((c : Thread nD τ).loc main_arg1))
        (m ((c : Thread nD τ).loc main_arg2))) := by
  rw [Cert.KernelIdeal.Value.flushed2]
  unfold out0_2
  rw [View.canon_unit_zero off3]
  simp only [View.ld_unit_zero (S := S4x64x4000) off3, View.ld_unit_zero (S := S4000) off1]
  obtain ⟨e0, e1, e2, e3, -, -, -⟩ := index_maps t
  funext j
  obtain ⟨p, q, s, rfl⟩ : ∃ (p : Fin 4) (q : Fin 64) (s : Fin 4000), j = ix3 p q s := ⟨j 0, j 1, j 2, eq_ix3 j⟩
  show k0_pay1 (F := Ideal) (iblk m c 0 t) (iblk m c 1 t) (ix3 p q s)
    = shifted (m ((c : Thread nD τ).loc main_arg0) : S32x512x4000.Idx → EReal) (m ((c : Thread nD τ).loc main_arg1))
        (m ((c : Thread nD τ).loc main_arg2)) (((cfg0.win 2).blk t).view.emb (ix3 p q s))
  refine (Cert.KernelIdeal.Payload.payload_apply (iblk m c 0 t) (iblk m c 1 t) (m ((c : Thread nD τ).loc main_arg1))
    (m ((c : Thread nD τ).loc main_arg2)) (code_block m c t) p q s).trans ?_
  refine (data_block m c t p q _).trans ?_
  -- the time coordinate of the block's element is its coordinate inside the block
  have h2 : (((cfg0.win 2).blk t).view.emb (ix3 p q s) 2 : Fin 4000) = s := Fin.ext (by
    show win0_2.index t (2 : Fin 3) * 4000 + 1 * s.val = s.val
    omega)
  unfold shifted
  rw [h2]
  refine congrArg _ (funext fun a => Fin.ext ?_)
  match a with
  | ⟨0, _⟩ =>
    show win0_0.index t (0 : Fin 3) * 4 + 1 * p.val = win0_2.index t (0 : Fin 3) * 4 + 1 * p.val
    omega
  | ⟨1, _⟩ =>
    show win0_0.index t (1 : Fin 3) * 64 + 1 * q.val = win0_2.index t (1 : Fin 3) * 64 + 1 * q.val
    omega
  | ⟨2, _⟩ =>
    show win0_0.index t (2 : Fin 3) * 4000 + 1 * (srcPos _ _ s).val = (srcPos _ _ s).val
    omega

/-- An index of the array is in point `t`'s block iff each coordinate is in the block's range on its axis. -/
theorem mem_blk (t : Fin cfg0.N) (i : S32x512x4000.Idx) :
    i ∈ ((cfg0.win 2).blk t).view.set ↔ ∀ a : Fin 3, win0_2.index t a * S4x64x4000.size a ≤ (i a).val
      ∧ (i a).val < win0_2.index t a * S4x64x4000.size a + S4x64x4000.size a := by
  show i ∈ ((View.whole main_v22).slice (win0_2.rect t)).set ↔ _
  rw [View.set_slice_whole, Rect.mem_set_unit]
  exact Iff.rfl

/-- The blocks tile the array: index `(r, k, s)` lies in the block of the point whose block index is `(r / 4, k / 64, 0)`. -/
theorem cover (i : S32x512x4000.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 4000 := (i 2).isLt
  obtain ⟨t, ht⟩ := index_onto ⟨(i 0).val / 4, by omega⟩ ⟨(i 1).val / 64, by omega⟩
  have q0 : win0_2.index t (0 : Fin 3) = (i 0).val / 4 := congrFun ht 0
  have q1 : win0_2.index t (1 : Fin 3) = (i 1).val / 64 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 4 ≤ (i 0).val ∧ (i 0).val < win0_2.index t (0 : Fin 3) * 4 + 4
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 4000 ≤ (i 2).val ∧ (i 2).val < win0_2.index t (2 : Fin 3) * 4000 + 4000
    omega

/-- THE RESULT ARRAY after the run is the shifted data. -/
theorem final (c : Dev nD) :
    (dats m 0 c).arrAt 2 cfg0.N = shifted (m ((c : Thread nD τ).loc main_arg0) : S32x512x4000.Idx → EReal)
      (m ((c : Thread nD τ).loc main_arg1)) (m ((c : Thread nD τ).loc main_arg2)) :=
  (dats m 0 c).arrAt_eq_of_cover 2 _ (fun t _ => flushed_eq m c t) cover

/-- THE KERNEL'S RUN: every weakly fair execution terminates with the result array at the shifted data of the arguments
    as launched, and the arguments unchanged. -/
theorem run : θ_run defs (onTc (τ := τ) (main (F := Ideal))) ⟨m, fun _ => 0, ρ⟩ fun r => ∀ c : Dev nD,
      r.2.mem ((c : Thread nD τ).loc main_v22) = shifted (m ((c : Thread nD τ).loc main_arg0) : S32x512x4000.Idx → EReal)
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.BlockValue

end
-- ==== Proof.RefRun.lean ====
/-
  The reference program's run, read back. Its @main is a straight line of host operations once the functions jax
  outlined are unfolded at their calls — four `jnp.where`s and one `jnp.take`, which itself calls a `where` —: the
  list `ops`. Every weakly fair execution terminates with each buffer at the fold of those operations over the
  launch contents (`run_main`), and the fold at the result buffer is `refTerm` of the three arguments (`out_eq`):
  the asked-for positions (the neighbour where masked, else the position itself), wrapped where negative, kept as a
  column; the gather of the data along the time axis at that column; and, where the column fails the range test
  `0 ≤ · ≤ 3999`, the fill value in the gather's place.
-/
import proofs.«176636_j84765474553865_1_alg».proof.Proof.Gen.ReferenceIdeal
import proofs.«176636_j84765474553865_1_alg».proof.Proof.NeighbourVectors
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- @main's 49 operations in order, each callee's operations at its call over that call's buffers. -/
abbrev ops : List (HloOp τ sig (Elt F)) :=
  [ nullary main_v0 (iotaInDim S4000 32 0),
    nullary main_c (constantI S_ 32 0#32),
    unary main_c main_v1 (broadcastInDim S4000 ![] bcast_S_S4000 : (⟨S_, .i32⟩ : BufTy).Contents (Elt F) → (⟨S4000, .i32⟩ : BufTy).Contents (Elt F)),
    binary main_arg2 main_v1 main_v2 (cmpi .sgt : (⟨S4000, .i32⟩ : BufTy).Contents (Elt F) → (⟨S4000, .i32⟩ : BufTy).Contents (Elt F) → (⟨S4000, .i1⟩ : BufTy).Contents (Elt F)),
    nullary main_c_0 (constantI S_ 32 1#32),
    nullary main_c_1 (constantI S_ 32 4294967295#32),
    -- the bit's step, +1 or −1
    TRef.unary (.of main_c_0 : TRef sig ⟨S_, .i32⟩) main_call0.v0 (broadcastInDim S4000 ![] bcast_S_S4000),
    TRef.unary (.of main_c_1 : TRef sig ⟨S_, .i32⟩) main_call0.v1 (broadcastInDim S4000 ![] bcast_S_S4000),
    TRef.ternary (.of main_v2 : TRef sig ⟨S4000, .i1⟩) main_call0.v0 main_call0.v1 main_call0.v2 select,
    nullary main_c_2 (constantI S_ 32 0#32),
    unary main_c_2 main_v4 (broadcastInDim S4000 ![] bcast_S_S4000 : (⟨S_, .i32⟩ : BufTy).Contents (Elt F) → (⟨S4000, .i32⟩ : BufTy).Contents (Elt F)),
    binary main_v0 main_v4 main_v5 (cmpi .eq : (⟨S4000, .i32⟩ : BufTy).Contents (Elt F) → (⟨S4000, .i32⟩ : BufTy).Contents (Elt F) → (⟨S4000, .i1⟩ : BufTy).Contents (Elt F)),
    nullary main_c_3 (constantI S_ 32 3999#32),
    unary main_c_3 main_v6 (broadcastInDim S4000 ![] bcast_S_S4000 : (⟨S_, .i32⟩ : BufTy).Contents (Elt F) → (⟨S4000, .i32⟩ : BufTy).Contents (Elt F)),
    binary main_v0 main_v6 main_v7 (cmpi .eq : (⟨S4000, .i32⟩ : BufTy).Contents (Elt F) → (⟨S4000, .i32⟩ : BufTy).Contents (Elt F) → (⟨S4000, .i1⟩ : BufTy).Contents (Elt F)),
    unary main_v3 main_v8 (id : (⟨S4000, .i32⟩ : BufTy).Contents (Elt F) → (⟨S4000, .i32⟩ : BufTy).Contents (Elt F)),
    binary main_v0 main_v8 main_v9 (addi : (⟨S4000, .i32⟩ : BufTy).Contents (Elt F) → (⟨S4000, .i32⟩ : BufTy).Contents (Elt F) → (⟨S4000, .i32⟩ : BufTy).Contents (Elt F)),
    nullary main_c_4 (constantI S_ 32 3998#32),
    -- 3998 at the last position
    TRef.unary (.of main_c_4 : TRef sig ⟨S_, .i32⟩) main_call1.v0 id,
    TRef.unary main_call1.v0 main_call1.v1 (broadcastInDim S4000 ![] bcast_S_S4000),
    TRef.ternary (.of main_v7 : TRef sig ⟨S4000, .i1⟩) main_call1.v1 (.of main_v9 : TRef sig ⟨S4000, .i32⟩) main_call1.v2 select,
    nullary main_c_5 (constantI S_ 32 1#32),
    -- 1 at the first position
    TRef.unary (.of main_c_5 : TRef sig ⟨S_, .i32⟩) main_call2.v0 id,
    TRef.unary main_call2.v0 main_call2.v1 (broadcastInDim S4000 ![] bcast_S_S4000),
    TRef.ternary (.of main_v5 : TRef sig ⟨S4000, .i1⟩) main_call2.v1 (.of main_v10 : TRef sig ⟨S4000, .i32⟩) main_call2.v2 select,
    -- the neighbour where masked, else the position
    TRef.ternary (.of main_arg1 : TRef sig ⟨S4000, .i1⟩) (.of main_v11 : TRef sig ⟨S4000, .i32⟩) (.of main_v0 : TRef sig ⟨S4000, .i32⟩) main_call3.v0 select,
    -- the index read along the time axis
    TRef.nullary main_call4.c (constantI S_ 32 0#32),
    TRef.unary main_call4.c main_call4.v0 (broadcastInDim S4000 ![] bcast_S_S4000),
    TRef.binary (.of main_v12 : TRef sig ⟨S4000, .i32⟩) main_call4.v0 main_call4.v1 (cmpi .slt),
    TRef.nullary main_call4.c_0 (constantI S_ 32 4000#32),
    TRef.unary main_call4.c_0 main_call4.v2 (broadcastInDim S4000 ![] bcast_S_S4000),
    TRef.binary (.of main_v12 : TRef sig ⟨S4000, .i32⟩) main_call4.v2 main_call4.v3 addi,
    TRef.ternary main_call4.v1 main_call4.v3 (.of main_v12 : TRef sig ⟨S4000, .i32⟩) main_call4.call0.v0 select,
    TRef.unary main_call4.call0.v0 main_call4.v5 (broadcastInDim S4000x1 ![0] bcast_S4000_S4000x1_0),
    TRef.nullary main_call4.c_1 (constantI S1 32 3999#32),
    TRef.nullary main_call4.c_2 (constantI S_ 32 0#32),
    TRef.unary main_call4.c_2 main_call4.v6 (broadcastInDim S4000x1 ![] bcast_S_S4000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S4000x1 ![0, 1] bcast_S1x1_S4000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4000x1_S4000_d1 h_S_),
    TRef.binary (.of main_arg0 : TRef sig ⟨S32x512x4000, .f32⟩) main_call4.v5 main_call4.v13 (fun x i => Host.gather gather_S32x512x4000_S4000x1_S32x512x4000_01_2_n_n_2_1_325121 x i),
    TRef.unary main_call4.v12 main_call4.v14 (broadcastInDim S32x512x4000 ![2] bcast_S4000_S32x512x4000_2),
    TRef.nullary main_call4.cst (constant S_ .f32 0x7FC00000#32),
    TRef.unary main_call4.cst main_call4.v15 (broadcastInDim S32x512x4000 ![] bcast_S_S32x512x4000),
    TRef.ternary main_call4.v14 main_call4.v13 main_call4.v15 main_call4.v16 select ]

set_option maxRecDepth 2048 in
/-- @main is that straight line: the functions unfolded at their calls, the sequencing reassociated. -/
theorem main_eq (c : Dev nD) : main (F := F) c = seq ops := by
  simp only [main, fn_where.body, fn_where_0.body, fn_where_1.body, fn_where_2.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    unary_bufs_sub .., binary_bufs_sub .., nullary_bufs_sub ..,
    unary_bufs_sub .., unary_bufs_sub .., ternary_bufs_sub ..,
    nullary_bufs_sub ..,
    unary_bufs_sub .., unary_bufs_sub .., ternary_bufs_sub ..,
    ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates, nothing faulting, with each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer -/

/-- The index read along the time axis of the data `x` at the asked-for positions `g`: `g` wrapped where negative
    and kept as a column; the range test of the column, reduced by `and` along its unit axis; the gather; the fill
    value where the test fails. -/
def takeTerm (x : FVec F S32x512x4000 .f32) (g : IVec S4000 32) : FVec F S32x512x4000 .f32 :=
  let w : IVec S4000 32 := select (cmpi .slt g (broadcastInDim S4000 ![] bcast_S_S4000 (constantI S_ 32 0#32)))
    (addi g (broadcastInDim S4000 ![] bcast_S_S4000 (constantI S_ 32 4000#32))) g
  let v5 : IVec S4000x1 32 := broadcastInDim S4000x1 ![0] bcast_S4000_S4000x1_0 w
  let v7 : IVec S4000x1 1 := cmpi .sge v5 (broadcastInDim S4000x1 ![] bcast_S_S4000x1 (constantI S_ 32 0#32))
  let v9 : IVec S4000x1 32 := broadcastInDim S4000x1 ![0, 1] bcast_S1x1_S4000x1_0_1
    (broadcastInDim S1x1 ![1] bcast_S1_S1x1_1 (constantI S1 32 3999#32))
  let v10 : IVec S4000x1 1 := cmpi .sle v5 v9
  let v12 : IVec S4000 1 := Host.reduce IntOp.andi (andi v7 v10) (constantI S_ 1 1#1) reducesTo_S4000x1_S4000_d1 h_S_
  select (broadcastInDim S32x512x4000 ![2] bcast_S4000_S32x512x4000_2 v12)
    (Host.gather gather_S32x512x4000_S4000x1_S32x512x4000_01_2_n_n_2_1_325121 x v5)
    (broadcastInDim S32x512x4000 ![] bcast_S_S32x512x4000 (constant S_ .f32 0x7FC00000#32))

/-- The reference's result as a function of its three arguments. -/
def refTerm (x : FVec F S32x512x4000 .f32) (mask : IVec S4000 1) (bits : IVec S4000 32) : FVec F S32x512x4000 .f32 :=
  takeTerm x (Cert.Neighbour.gidxVec mask bits)

attribute [local irreducible] Host.reduce Host.gather in
set_option maxRecDepth 8192 in
set_option maxHeartbeats 1000000 in
/-- The fold at the result buffer is `refTerm` of the arguments' contents. -/
theorem out_eq (V : Valuation τ sig (Elt F)) :
    after ops V (main_v13 : DevRef τ sig)
      = refTerm (V (main_arg0 : DevRef τ sig)) (V (main_arg1 : DevRef τ sig)) (V (main_arg2 : DevRef τ sig)) := by
  after_results_simp
  rfl

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp

/-- THE REFERENCE'S RUN: every weakly fair execution terminates with the result at `refTerm` of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _), (h c main_arg0).trans (arg0_eq _),
      (h c main_arg1).trans (arg1_eq _), (h c main_arg2).trans (arg2_eq _)⟩)
    (run_main m ρ)

end Cert.ReferenceIdeal.HandRun

end
-- ==== Proof.LibGatherLastAxis.lean ====
/-
  A `stablehlo.gather` that picks, for every position `t` of the result's last axis, one position of the operand's
  last axis — what `jnp.take(x, idx, axis=2)` of an array `x : [A, B, N]` at an integer vector `idx : [M]` lowers to,
  the start indices kept as a column `[M, 1]` — read at coordinates: result entry `(a, b, t)` is the operand at
  `(a, b, idx[t, 0])`, the start index read signed and clamped into `[0, N − 1]`. Any extents.
  Also: a `stablehlo.reduce` by `and` of one-bit words from the initial value `1` is `1` when every word is `1`.
-/
import Idealize.ShloMosaic.Lib.ValueIdx
import Idealize.ShloMosaic.PureOps.Reduce

noncomputable section

namespace Cert.LibGatherLastAxis

open Idealize.ShloMosaic Idealize.ShloMosaic.ValueIdx

variable {α : Type}

/-- The dimension numbers of a gather along the last axis of `[A, B, N]` at start indices `[M, 1]` into `[A, B, M]`:
    the two leading axes are offset axes carried whole, the last axis is collapsed and is the one the start index names. -/
abbrev lastAxisDims (A B N M : Nat)
    (wf : GatherDims.WF ⟨3, ![A, B, N]⟩ ⟨2, ![M, 1]⟩ ⟨3, ![A, B, M]⟩ [0, 1] [2] [] [2] [] 1 ![A, B, 1]) :
    GatherDims ⟨3, ![A, B, N]⟩ ⟨2, ![M, 1]⟩ ⟨3, ![A, B, M]⟩ where
  offsetDims := [0, 1]
  collapsedSliceDims := [2]
  operandBatchingDims := []
  startIndicesBatchingDims := []
  startIndexMap := [2]
  indexVectorDim := 1
  sliceSizes := ![A, B, 1]
  wf := wf

/-- THE GATHER READ AT `(a, b, t)`: the operand at `(a, b, k)` with `k` the start index `idx[t, 0]` read as a signed
    integer and clamped into `[0, N − 1]`. -/
theorem gather_lastAxis_apply {A B N M w : Nat} (hN : 0 < N)
    (wf : GatherDims.WF ⟨3, ![A, B, N]⟩ ⟨2, ![M, 1]⟩ ⟨3, ![A, B, M]⟩ [0, 1] [2] [] [2] [] 1 ![A, B, 1])
    (x : (⟨3, ![A, B, N]⟩ : Shape).Idx → α) (idx : IVec ⟨2, ![M, 1]⟩ w) (a : Fin A) (b : Fin B) (t : Fin M) :
    Host.gather (lastAxisDims A B N M wf) x idx (ix3 a b t)
      = x (ix3 a b ⟨min (idx (ix2 t (0 : Fin 1))).toInt.toNat (N - 1), by omega⟩) := by
  unfold Host.gather
  refine congrArg x (funext fun c => Fin.ext ?_)
  show (lastAxisDims A B N M wf).start (ix3 a b t) idx c + (lastAxisDims A B N M wf).batchCoord (ix3 a b t) c
      + (lastAxisDims A B N M wf).offCoord (ix3 a b t) c = _
  rw [GatherDims.batchCoord_eq_zero _ _ _ List.not_mem_nil, Nat.add_zero]
  match c with
  | ⟨0, h0⟩ =>
    have hs : (lastAxisDims A B N M wf).start (ix3 a b t) idx ⟨0, h0⟩ = 0 := by
      unfold GatherDims.start
      rw [dif_neg (fun hm => absurd (congrArg Fin.val (List.mem_singleton.mp hm)) (show ¬ (0 : Nat) = 2 by decide))]
    rw [hs, Nat.zero_add]; rfl
  | ⟨1, h1⟩ =>
    have hs : (lastAxisDims A B N M wf).start (ix3 a b t) idx ⟨1, h1⟩ = 0 := by
      unfold GatherDims.start
      rw [dif_neg (fun hm => absurd (congrArg Fin.val (List.mem_singleton.mp hm)) (show ¬ (1 : Nat) = 2 by decide))]
    rw [hs, Nat.zero_add]; rfl
  | ⟨2, h2⟩ =>
    rw [GatherDims.offCoord_eq_zero _ _ _ (fun h => ((GatherDims.mem_sKept _ _).mp h).1 (List.mem_singleton.mpr rfl)),
      Nat.add_zero]
    unfold GatherDims.start
    rw [dif_pos (show (⟨2, h2⟩ : Fin 3) ∈ (lastAxisDims A B N M wf).startIndexMap from List.mem_singleton.mpr rfl)]
    have hsi : (lastAxisDims A B N M wf).siIdx (ix3 a b t)
        ⟨List.idxOf (⟨2, h2⟩ : Fin 3) (lastAxisDims A B N M wf).startIndexMap,
          List.idxOf_lt_length_iff.2 (List.mem_singleton.mpr rfl)⟩ = ix2 t (0 : Fin 1) := by
      funext d; refine Fin.ext ?_
      match d with
      | ⟨0, _⟩ => rfl
      | ⟨1, _⟩ => rfl
    rw [hsi]
    rfl

/-- A left fold by `and` over one-bit words that are all `1`, started at `1`, is `1`. -/
theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_one f hf l

/-- A `stablehlo.reduce` by `and` from the initial value `1` of an array of one-bit words that are all `1` is `1`
    at every result index, whatever axes it reduces. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

end Cert.LibGatherLastAxis

end
-- ==== Proof.RefValue.lean ====
/-
  The reference's result read at an index, on any float values: entry `(a, b, t)` of `refTerm x mask bits` is the
  data's entry `(a, b, src t)`. The asked-for position of every `t` is the word of a position in `[0, 3999]`
  (`Cert.Neighbour.gidxWord_eq`), so the wrap of negative indices leaves it alone, the range test passes at every
  position — the fill value is never taken — and the gather's clamp does not move it.
-/
import proofs.«176636_j84765474553865_1_alg».proof.Proof.RefRun
import proofs.«176636_j84765474553865_1_alg».proof.Proof.LibGatherLastAxis
import Idealize.ShloMosaic.Lib.Pipeline.Value

noncomputable section

namespace Cert.ReferenceIdeal.RefValue

open Cert.ReferenceIdeal Cert.ReferenceIdeal.Gen Cert.ReferenceIdeal.HandRun Idealize.ShloMosaic Idealize.ShloMosaic.ValueIdx
  Cert.Neighbour

variable {F : FTy → Type} [FloatOps F]

/-! ## The stages of the index read, named -/

/-- The asked-for positions with the negative ones counted from the end. -/
def wrapVec (g : IVec S4000 32) : IVec S4000 32 :=
  select (cmpi .slt g (broadcastInDim S4000 ![] bcast_S_S4000 (constantI S_ 32 0#32)))
    (addi g (broadcastInDim S4000 ![] bcast_S_S4000 (constantI S_ 32 4000#32))) g

theorem wrapVec_apply (g : IVec S4000 32) (t : Fin 4000) : wrapVec g (ix1 t) = wrapWord (g (ix1 t)) := rfl

/-- A vector of positions kept as a column. -/
def colVec (w : IVec S4000 32) : IVec S4000x1 32 := broadcastInDim S4000x1 ![0] bcast_S4000_S4000x1_0 w

theorem colVec_apply (w : IVec S4000 32) (s : Fin 4000) (u : Fin 1) : colVec w (ix2 s u) = w (ix1 s) :=
  broadcastInDim_apply _ bcast_S4000_S4000x1_0 w (ix2 s u) (ix1 s) (fun d => by
    match d with
    | ⟨0, h0⟩ => exact (if_neg (show ¬ S4000.size ⟨0, h0⟩ = 1 from (by decide : ¬ (4000 : Nat) = 1))).symm)

/-- The range test `0 ≤ · ≤ 3999` of a column of positions. -/
def testVec (v : IVec S4000x1 32) : IVec S4000x1 1 :=
  andi (cmpi .sge v (broadcastInDim S4000x1 ![] bcast_S_S4000x1 (constantI S_ 32 0#32)))
    (cmpi .sle v (broadcastInDim S4000x1 ![0, 1] bcast_S1x1_S4000x1_0_1
      (broadcastInDim S1x1 ![1] bcast_S1_S1x1_1 (constantI S1 32 3999#32))))

theorem testVec_apply (v : IVec S4000x1 32) (i : S4000x1.Idx) : testVec v i = inRangeWord (v i) := rfl

/-- The index read is the select of the gather and the fill value by the range test reduced along the unit axis. -/
theorem takeTerm_eq (x : FVec F S32x512x4000 .f32) (g : IVec S4000 32) :
    takeTerm x g = select
      (broadcastInDim S32x512x4000 ![2] bcast_S4000_S32x512x4000_2
        (Host.reduce IntOp.andi (testVec (colVec (wrapVec g))) (constantI S_ 1 1#1) reducesTo_S4000x1_S4000_d1 h_S_))
      (Host.gather gather_S32x512x4000_S4000x1_S32x512x4000_01_2_n_n_2_1_325121 x (colVec (wrapVec g)))
      (broadcastInDim S32x512x4000 ![] bcast_S_S32x512x4000 (constant S_ .f32 0x7FC00000#32)) := rfl

/-! ## The index read at an index -/

/-- When every asked-for position is the word of a position in `[0, 3999]`, the index read at `(a, b, t)` is the
    data at `(a, b, k)`, `k` the asked-for position of `t` (wrapped, read signed and clamped: all three leave it). -/
theorem takeTerm_apply (x : FVec F S32x512x4000 .f32) (g : IVec S4000 32)
    (hg : ∀ s : Fin 4000, ∃ n : Nat, n < 4000 ∧ g (ix1 s) = BitVec.ofNat 32 n) (a : Fin 32) (b : Fin 512) (t : Fin 4000) :
    takeTerm x g (ix3 a b t) = x (ix3 a b ⟨min (wrapWord (g (ix1 t))).toInt.toNat 3999, by omega⟩) := by
  -- the range test passes everywhere
  have hall : ∀ i : S4000x1.Idx, testVec (colVec (wrapVec g)) i = 1#1 := fun i => by
    obtain ⟨s, u, rfl⟩ : ∃ (s : Fin 4000) (u : Fin 1), i = ix2 s u := ⟨i 0, i 1, eq_ix2 i⟩
    obtain ⟨n, hn, e⟩ := hg s
    rw [testVec_apply, colVec_apply, wrapVec_apply, e, wrapWord_small n hn]
    exact inRangeWord_small n hn
  have hok : Host.reduce IntOp.andi (testVec (colVec (wrapVec g))) (constantI S_ 1 1#1) reducesTo_S4000x1_S4000_d1 h_S_ (ix1 t)
      = 1#1 :=
    Cert.LibGatherLastAxis.reduce_andi_of_all _ _ reducesTo_S4000x1_S4000_d1 h_S_ (fun _ => rfl) hall (ix1 t)
  -- the reduced test broadcast along the time axis, at the index
  have hbc : broadcastInDim S32x512x4000 ![2] bcast_S4000_S32x512x4000_2
        (Host.reduce IntOp.andi (testVec (colVec (wrapVec g))) (constantI S_ 1 1#1) reducesTo_S4000x1_S4000_d1 h_S_) (ix3 a b t)
      = Host.reduce IntOp.andi (testVec (colVec (wrapVec g))) (constantI S_ 1 1#1) reducesTo_S4000x1_S4000_d1 h_S_ (ix1 t) :=
    broadcastInDim_apply _ bcast_S4000_S32x512x4000_2 _ (ix3 a b t) (ix1 t) (fun d => by
      match d with
      | ⟨0, h0⟩ => exact (if_neg (show ¬ S4000.size ⟨0, h0⟩ = 1 from (by decide : ¬ (4000 : Nat) = 1))).symm)
  -- the gather at the index
  have hgather : Host.gather gather_S32x512x4000_S4000x1_S32x512x4000_01_2_n_n_2_1_325121 x (colVec (wrapVec g)) (ix3 a b t)
      = x (ix3 a b ⟨min (colVec (wrapVec g) (ix2 t (0 : Fin 1))).toInt.toNat (4000 - 1), by omega⟩) :=
    Cert.LibGatherLastAxis.gather_lastAxis_apply (A := 32) (B := 512) (N := 4000) (M := 4000) (by decide)
      gather_S32x512x4000_S4000x1_S32x512x4000_01_2_n_n_2_1_325121_wf x (colVec (wrapVec g)) a b t
  rw [takeTerm_eq, select_apply, hbc, hok, select_one, hgather]
  refine congrArg x (congrArg (ix3 a b) (Fin.ext ?_))
  show min (colVec (wrapVec g) (ix2 t (0 : Fin 1))).toInt.toNat (4000 - 1) = min (wrapWord (g (ix1 t))).toInt.toNat 3999
  rw [colVec_apply, wrapVec_apply]

/-- THE REFERENCE'S RESULT AT `(a, b, t)`: the data at the source position of `t`. -/
theorem refTerm_apply (x : FVec F S32x512x4000 .f32) (mask : IVec S4000 1) (bits : IVec S4000 32)
    (a : Fin 32) (b : Fin 512) (t : Fin 4000) :
    refTerm x mask bits (ix3 a b t) = x (ix3 a b (srcPos (mask (ix1 t)) (bits (ix1 t)) t)) :=
  takeTerm_apply x (gidxVec mask bits) (fun s => gidxWord_eq (mask (ix1 s)) (bits (ix1 s)) s) a b t

/-- The reference's result is the shifted data, as whole arrays. -/
theorem refTerm_eq (x : FVec F S32x512x4000 .f32) (mask : IVec S4000 1) (bits : IVec S4000 32) :
    refTerm x mask bits = shifted x mask bits := by
  funext i
  obtain ⟨a, b, t, rfl⟩ : ∃ (a : Fin 32) (b : Fin 512) (t : Fin 4000), i = ix3 a b t := ⟨i 0, i 1, i 2, eq_ix3 i⟩
  exact refTerm_apply x mask bits a b t

end Cert.ReferenceIdeal.RefValue

end
-- ==== Proof.lean ====
/- The proof of `Cert.Claim` (Defs.lean): a kernel that replaces, along a time axis of 4000 positions, every masked entry of a
   `[32, 512, 4000]` array by its neighbour one step ahead or one step behind — chosen per position by a random bit, with
   the first position always looking ahead and the last always behind — against a reference that builds the vector of
   source positions and reads the array at it with one index read (`jnp.take`).

   Both results are ONE function of the three arguments, `Cert.Neighbour.shifted`: entry `(a, b, t)` is the data's entry
   `(a, b, src t)`. The kernel gets there by two cyclic rotations of each block along the time axis and a three-way
   select on a per-position code `+1 / −1 / 0` computed on the host (Proof/KernelHost.lean, KernelPayload.lean; block by
   block to the whole array in KernelValue.lean); the reference by wrapping, range-testing and gathering at the source
   positions (Proof/RefRun.lean, RefValue.lean). The per-position integer argument joining them — the neighbour is
   always `t + 1` with `t < 3999` or `t − 1` with `0 < t`, so the rotations never wrap where they are used and the
   index read never leaves `[0, 3999]` — is Proof/NeighbourWords.lean. No arithmetic touches the data, so the claim holds
   for every extended-real input and the precondition is not used. The three frames are the programs' runs with the result
   dropped; the idealization rewrote nothing, so `preserves` is `True`. -/
import proofs.«176636_j84765474553865_1_alg».proof.Defs
import proofs.«176636_j84765474553865_1_alg».proof.Proof.Gen.Kernel
import proofs.«176636_j84765474553865_1_alg».proof.Proof.Gen.Kernel.Frame
import proofs.«176636_j84765474553865_1_alg».proof.Proof.Gen.KernelIdeal
import proofs.«176636_j84765474553865_1_alg».proof.Proof.Gen.KernelIdeal.Frame
import proofs.«176636_j84765474553865_1_alg».proof.Proof.Gen.ReferenceIdeal
import proofs.«176636_j84765474553865_1_alg».proof.Proof.Gen.Pre_finite_inputs
import proofs.«176636_j84765474553865_1_alg».proof.Proof.KernelValue
import proofs.«176636_j84765474553865_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- On the extended reals the kernel's result array ends at the shifted data (KernelValue.lean) and the reference's at its
    index read (RefRun.lean), which is the shifted data too (RefValue.lean), of arguments that agree. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact Cert.ReferenceIdeal.RefValue.refTerm_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
